-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S4x2048x4096 .f32) (main_arg1 : FVec F S16384x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S4x2048x4096 : Shape := ⟨3, ![4, 2048, 4096]⟩
abbrev S16384x4096 : Shape := ⟨2, ![16384, 4096]⟩
abbrev S_ : Shape := ⟨0, ![]⟩
abbrev S8192x4096 : Shape := ⟨2, ![8192, 4096]⟩
abbrev S8192x16384 : Shape := ⟨2, ![8192, 16384]⟩
abbrev S512x4096 : Shape := ⟨2, ![512, 4096]⟩
abbrev S1024x4096 : Shape := ⟨2, ![1024, 4096]⟩
abbrev S512x1024 : Shape := ⟨2, ![512, 1024]⟩
abbrev S4x2048x16384 : Shape := ⟨3, ![4, 2048, 16384]⟩

abbrev nBuf : Space → Nat
  | .hbm => 23
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | .hbm, ⟨19, _⟩ => ⟨S4x2048x4096, .bf16⟩
  | .hbm, ⟨20, _⟩ => ⟨S8192x4096, .bf16⟩
  | .hbm, ⟨21, _⟩ => ⟨S8192x16384, .f32⟩
  | .hbm, ⟨22, _⟩ => ⟨S4x2048x16384, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  bitsLt_bf16_f32 : FTy.bits .bf16 < FTy.bits .f32
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  shapeCasts_S8192x16384_S4x2048x16384 : S8192x16384.ShapeCasts S4x2048x16384
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x16384.size a
  hwx0_2 : ∀ i : grid0.Coords, EltTy.bits .f32 = 32 ∨ (Rect.block (s := S8192x16384) S512x1024.size (cc0_transform_2 i) (hinb0_2 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v14) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S_ : Shape := ⟨0, ![]⟩
abbrev S4x2048x16384 : Shape := ⟨3, ![4, 2048, 16384]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Linear.lean ====
/-
  The mathematics of a ternary-weight linear layer, independent of any program.

  The layer maps activations `x[b, s, k]` (4 × 2048 × 4096) and a weight matrix `q[o, k]` (16384 × 4096) to
  `out[b, s, o] = Σ_k x[b, s, k] · q[o, k]`: a contraction of the last axis of both operands. One side computes it
  as it stands; the other first flattens the two leading axes of `x` into 8192 rows, forms the 8192 × 16384 product
  of rows against the rows of `q`, and splits the row axis again. The row `r = 2048·b + s` of the flattened
  activations IS `x[b, s, ·]`, so the two are the same sum term by term: no law of the extended reals beyond
  equality of the summands is used, and nothing needs the entries to be finite.
-/
import Idealize.ShloMosaic.PureOps.Ideal
import Idealize.ShloMosaic.Lib.ValueIdx

noncomputable section

namespace Cert.TernaryLinear

open Idealize.ShloMosaic Idealize.ShloMosaic.ValueIdx

/-- The layer on the three-axis activations: entry `(b, s, o)` is the sum over `k` of `x[b, s, k] · q[o, k]`. -/
def linear (x : (⟨3, ![4, 2048, 4096]⟩ : Shape).Idx → EReal) (q : (⟨2, ![16384, 4096]⟩ : Shape).Idx → EReal) :
    (⟨3, ![4, 2048, 16384]⟩ : Shape).Idx → EReal :=
  fun i => ∑ k : Fin 4096, x (ix3 (i 0) (i 1) k) * q (ix2 (i 2) k)

/-- The product of a matrix of 8192 rows with the transpose of `q`: entry `(r, o)` is the sum over `k` of
    `a[r, k] · q[o, k]`. -/
def rowsProduct (a : (⟨2, ![8192, 4096]⟩ : Shape).Idx → EReal) (q : (⟨2, ![16384, 4096]⟩ : Shape).Idx → EReal) :
    (⟨2, ![8192, 16384]⟩ : Shape).Idx → EReal :=
  fun j => ∑ k : Fin 4096, a (ix2 (j 0) k) * q (ix2 (j 1) k)

/-- When row `r` of `a` is `x[b, s, ·]`, entry `(r, o)` of the rows' product is entry `(b, s, o)` of the layer. -/
theorem rowsProduct_eq_linear (x : (⟨3, ![4, 2048, 4096]⟩ : Shape).Idx → EReal)
    (a : (⟨2, ![8192, 4096]⟩ : Shape).Idx → EReal) (q : (⟨2, ![16384, 4096]⟩ : Shape).Idx → EReal)
    (b : Fin 4) (s : Fin 2048) (o : Fin 16384) (r : Fin 8192)
    (hrow : ∀ k : Fin 4096, a (ix2 r k) = x (ix3 b s k)) :
    rowsProduct a q (ix2 r o) = linear x q (ix3 b s o) := by
  unfold rowsProduct linear
  exact Finset.sum_congr rfl fun k _ => by rw [hrow k]

end Cert.TernaryLinear

end
-- ==== Proof.RefLinear.lean ====
/-
  The reference computes the layer.

  The reference quantizes the weight matrix on the host and contracts the activations' last axis with the quantized
  matrix's last axis in one product. Read at entry `(b, s, o)` over the extended reals that product is the sum over
  `k` of `x[b, s, k] · q[o, k]`, which is the layer of `x` and the quantized matrix `q` by definition: the product's
  left index is `(b, s, k)` and its right index is `(o, k)`.
-/
import proofs.«136857_j24438363914262_1_alg».proof.Proof.Gen.ReferenceIdeal.Read
import proofs.«136857_j24438363914262_1_alg».proof.Proof.Linear

noncomputable section

namespace Cert.ReferenceIdeal.RefValue

open Cert.ReferenceIdeal Cert.ReferenceIdeal.Gen Cert.ReferenceIdeal.Read Idealize.ShloMosaic Idealize.ShloMosaic.ValueIdx

/-- The reference's result is the layer of the activations and the reference's own quantized weight matrix. -/
theorem result_eq (x0 : (⟨S4x2048x4096, .f32⟩ : BufTy).Contents (Elt Ideal)) (x1 : (⟨S16384x4096, .f32⟩ : BufTy).Contents (Elt Ideal)) :
    val_main_v12 (F := Ideal) x0 x1 = Cert.TernaryLinear.linear x0 (val_main_v11 (F := Ideal) x1) := by
  funext i
  rw [val_main_v12_apply]
  unfold Cert.TernaryLinear.linear
  refine Finset.sum_congr rfl fun k _ => ?_
  have el : lidx_main_v12 i k = ix3 (i 0) (i 1) k := funext fun a => Fin.ext (by
    match a with
    | ⟨0, _⟩ => rfl
    | ⟨1, _⟩ => rfl
    | ⟨2, _⟩ => rfl)
  have er : ridx_main_v12 i k = ix2 (i 2) k := funext fun a => Fin.ext (by
    match a with
    | ⟨0, _⟩ => rfl
    | ⟨1, _⟩ => rfl)
  rw [el, er]
  rfl

end Cert.ReferenceIdeal.RefValue

end
-- ==== Proof.Entry.lean ====
/-
  What the product region finds in its two operand arrays.

  Before the region the host quantizes the weight matrix to the ternary values: with `γ` the mean of `|W|` over all
  16384 · 4096 entries plus a small positive constant, each entry becomes `sign(W/γ) · min(round(|W/γ|), 1)`. The
  quantized matrix is then narrowed to the 16-bit format, and the activations are narrowed and their two leading axes
  flattened into 8192 rows. Over the extended reals a change of float format is the identity, so the weight operand is
  the quantized matrix itself and row `2048·b + s` of the activation operand is `x[b, s, ·]`. The quantization is
  kept as ONE function of the weight matrix and never opened: the other side quantizes with the same operations and
  the same constants, and only that sameness is used.
-/
import proofs.«136857_j24438363914262_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

/-- `γ`, as a scalar array: the sum of `|W|` over every entry, divided by the number of entries, plus the constant. -/
def scale (W : FVec Ideal S16384x4096 .f32) : FVec Ideal S_ .f32 :=
  addf (F := Ideal)
    (Host.divf (F := Ideal)
      (Host.reduceAdd (F := Ideal) (Host.absf (F := Ideal) W) (constant (F := Ideal) S_ .f32 0x00000000#32) reducesTo_S16384x4096_S_d0_1 h_S_)
      (constant (F := Ideal) S_ .f32 0x4C800000#32))
    (constant (F := Ideal) S_ .f32 0x358637BD#32)

/-- The ternary weight matrix: `sign(W/γ) · min(round(|W/γ|), 1)`, entry by entry. -/
def quantized (W : FVec Ideal S16384x4096 .f32) : FVec Ideal S16384x4096 .f32 :=
  mulf (F := Ideal)
    (Host.sign (F := Ideal) (Host.divf (F := Ideal) W (broadcastInDim S16384x4096 ![] bcast_S_S16384x4096 (scale W))))
    (minimumf (F := Ideal)
      (Host.roundeven (F := Ideal) (Host.absf (F := Ideal) (Host.divf (F := Ideal) W (broadcastInDim S16384x4096 ![] bcast_S_S16384x4096 (scale W)))))
      (broadcastInDim S16384x4096 ![] bcast_S_S16384x4096 (constant (F := Ideal) S_ .f32 0x3F800000#32)))

variable (m : (ℓ : Loc nD τ sig) → Buf (Elt Ideal) ℓ)

/-- The weight operand as the region finds it is the quantized matrix (narrowing is the identity). -/
theorem weight_operand (c : Dev nD) :
    (V m c main_v12 : S16384x4096.Idx → EReal) = quantized (m ((c : Thread nD τ).loc main_arg1)) := by
  dsimp only [Gen.V, Gen.V0]
  simp only [Gen.hostOps0, Gen.hostOps0_1, Gen.hostOps0_2, List.flatten_cons, List.flatten_nil, List.append_nil,
    List.cons_append, List.nil_append]
  after_results
  rfl

/-- The activation operand as the region finds it is the activations with the two leading axes flattened. -/
theorem rows_operand (c : Dev nD) :
    (V m c main_v14 : S8192x4096.Idx → EReal)
      = shapeCast S8192x4096 (m ((c : Thread nD τ).loc main_arg0)) shapeCasts_S4x2048x4096_S8192x4096 := by
  dsimp only [Gen.V, Gen.V0]
  simp only [Gen.hostOps0, Gen.hostOps0_1, Gen.hostOps0_2, List.flatten_cons, List.flatten_nil, List.append_nil,
    List.cons_append, List.nil_append]
  after_results
  rfl

/-- Row `2048·b + s` of the activation operand is `x[b, s, ·]`: the two indices have the same row-major position. -/
theorem rows_operand_apply (c : Dev nD) (b : Fin 4) (s : Fin 2048) (k : Fin 4096) (r : Fin 8192)
    (hr : r.val = b.val * 2048 + s.val) :
    (V m c main_v14 : S8192x4096.Idx → EReal) (ix2 r k) = m ((c : Thread nD τ).loc main_arg0) (ix3 b s k) := by
  rw [rows_operand]
  refine shapeCast_apply _ _ _ _ ?_
  show ((⟨3, ![4, 2048, 4096]⟩ : Shape).rowMajor (ix3 b s k)).val = ((⟨2, ![8192, 4096]⟩ : Shape).rowMajor (ix2 r k)).val
  rw [Shape.rowMajor_val_two, Shape.rowMajor_val_three]
  show (b.val * 2048 + s.val) * 4096 + k.val = r.val * 4096 + k.val
  rw [hr]

end Cert.KernelIdeal.Entry

end
-- ==== Proof.BlockProduct.lean ====
/-
  One block of the product, read at an index.

  At every grid point the body multiplies a 512 × 4096 block of rows by the transpose of a 1024 × 4096 block of
  weight rows into a zero accumulator. Over the extended reals that product, at entry `(p, q)` of the 512 × 1024
  result, is the plain sum over `k` of `rows[p, k] · weights[q, k]`: the accumulator is the real zero, the two
  identity shape casts change nothing, and the contraction index of the product is its one coordinate `k`.
-/
import proofs.«136857_j24438363914262_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-- The left operand is read at the output's row and the contraction coordinate, -/
theorem lhs_row (j : S512x1024.Idx) (q : dot_S512x4096_S1024x4096_S512x1024_1_1_0_0_n_n.contr.Idx) :
    (dot_S512x4096_S1024x4096_S512x1024_1_1_0_0_n_n.lhsIdx j q 0).val = (j 0).val := by
  unfold DotDims.lhsIdx
  rw [dif_neg (show ¬(0 : Fin S512x4096.rank) ∈ dot_S512x4096_S1024x4096_S512x1024_1_1_0_0_n_n.lhsBatch by decide),
    dif_pos (show (0 : Fin S512x4096.rank) ∈ dot_S512x4096_S1024x4096_S512x1024_1_1_0_0_n_n.lhsNonContracting by decide)]
  rfl
theorem lhs_contr (j : S512x1024.Idx) (q : dot_S512x4096_S1024x4096_S512x1024_1_1_0_0_n_n.contr.Idx) :
    (dot_S512x4096_S1024x4096_S512x1024_1_1_0_0_n_n.lhsIdx j q 1).val = (q ⟨0, by decide⟩).val :=
  dot_S512x4096_S1024x4096_S512x1024_1_1_0_0_n_n.lhsIdx_val_of_single rfl j q
/-- and the right operand at the output's column (a ROW of the weight block) and the contraction coordinate. -/
theorem rhs_row (j : S512x1024.Idx) (q : dot_S512x4096_S1024x4096_S512x1024_1_1_0_0_n_n.contr.Idx) :
    (dot_S512x4096_S1024x4096_S512x1024_1_1_0_0_n_n.rhsIdx j q 0).val = (j 1).val := by
  unfold DotDims.rhsIdx
  rw [dif_neg (show ¬(0 : Fin S1024x4096.rank) ∈ dot_S512x4096_S1024x4096_S512x1024_1_1_0_0_n_n.rhsBatch by decide),
    dif_pos (show (0 : Fin S1024x4096.rank) ∈ dot_S512x4096_S1024x4096_S512x1024_1_1_0_0_n_n.rhsNonContracting by decide)]
  rfl
theorem rhs_contr (j : S512x1024.Idx) (q : dot_S512x4096_S1024x4096_S512x1024_1_1_0_0_n_n.contr.Idx) :
    (dot_S512x4096_S1024x4096_S512x1024_1_1_0_0_n_n.rhsIdx j q 1).val = (q ⟨0, by decide⟩).val :=
  dot_S512x4096_S1024x4096_S512x1024_1_1_0_0_n_n.rhsIdx_val_of_single rfl j q

/-- The body's one stored value, at entry `(p, q)` of the block: `Σ_k rows[p, k] · weights[q, k]`. -/
theorem block_apply (x0 : Vec Ideal S512x4096 .bf16) (x1 : Vec Ideal S1024x4096 .bf16) (p : Fin 512) (q : Fin 1024) :
    k0_pay1 (F := Ideal) x0 x1 (ix2 p q) = ∑ k : Fin 4096, x0 (ix2 p k) * x1 (ix2 q k) := by
  unfold k0_pay1
  rw [shapeCast_self, shapeCast_self]
  simp only [matmul]
  rw [Ideal.matmul_constant_zero_apply,
    ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p q)
      ((contrEquiv1 dot_S512x4096_S1024x4096_S512x1024_1_1_0_0_n_n 4096 rfl rfl).symm k) = ix2 p k :=
    funext fun a => Fin.ext (by
      match a with
      | ⟨0, _⟩ => exact lhs_row _ _
      | ⟨1, _⟩ => exact (lhs_contr _ _).trans hk)
  have er : dot_S512x4096_S1024x4096_S512x1024_1_1_0_0_n_n.rhsIdx (ix2 p q)
      ((contrEquiv1 dot_S512x4096_S1024x4096_S512x1024_1_1_0_0_n_n 4096 rfl rfl).symm k) = ix2 q k :=
    funext fun a => Fin.ext (by
      match a with
      | ⟨0, _⟩ => exact rhs_row _ _
      | ⟨1, _⟩ => exact (rhs_contr _ _).trans hk)
  rw [el, er]

end Cert.KernelIdeal.BlockValue

end
-- ==== Proof.Product.lean ====
/-
  The array the product region leaves.

  The region runs over a 16 × 16 grid. Point `t` has column-block `t / 16` and row-block `t % 16`: it reads rows
  `512·(t % 16) …` of the activation operand (all 4096 columns), rows `1024·(t / 16) …` of the weight operand (all 4096
  columns), and writes the 512 × 1024 block of the result at row-block `t % 16`, column-block `t / 16`. What it
  writes is the block product of what it read, so entry `(p, q)` of its block is `Σ_k a[512·(t % 16) + p, k] ·
  w[1024·(t / 16) + q, k]`: the block at that position of ONE array, the product of all rows of `a` with all rows of
  `w`. The 256 blocks tile the 8192 × 16384 result (entry `(r, o)` lies in the block of point
  `16·(o / 1024) + r / 512`), so after the run the result array is that product.
-/
import proofs.«136857_j24438363914262_1_alg».proof.Proof.Gen.KernelIdeal.Frame
import proofs.«136857_j24438363914262_1_alg».proof.Proof.Linear
import proofs.«136857_j24438363914262_1_alg».proof.Proof.BlockProduct

set_option maxRecDepth 16384

noncomputable section

namespace Cert.KernelIdeal.ProductValue

open Cert.KernelIdeal Cert.KernelIdeal.Gen Idealize.ShloMosaic Idealize.ShloMosaic.TcCoe Idealize.SL.Sem
open Idealize.ShloMosaic.ValueIdx
open Cert.TernaryLinear

theorem zero_offsets : (![0, 0] : Fin 2 → Nat) = fun _ => 0 := funext fun a => by fin_cases a <;> rfl

/-- If row `y 0` of the row block is row `i 0` of `A` and row `y 1` of the weight block is row `i 1` of `B`, then entry
    `y` of the block product is entry `i` of the rows' product of `A` and `B`: both are the sum over `k` of the same
    products. Stated over any two blocks and any two entries so related. -/
theorem block_is_product (A : S8192x4096.Idx → EReal) (B : S16384x4096.Idx → EReal)
    (x0 : Vec Ideal S512x4096 .bf16) (x1 : Vec Ideal S1024x4096 .bf16) (y : S512x1024.Idx) (i : S8192x16384.Idx)
    (h0 : ∀ k : Fin 4096, x0 (ix2 (y 0) k) = A (ix2 (i 0) k))
    (h1 : ∀ k : Fin 4096, x1 (ix2 (y 1) k) = B (ix2 (i 1) k)) :
    k0_pay1 (F := Ideal) x0 x1 y = rowsProduct A B i := by
  obtain ⟨p, q, rfl⟩ : ∃ (p : Fin 512) (q : Fin 1024), y = ix2 p q := ⟨y 0, y 1, eq_ix2 y⟩
  refine (BlockValue.block_apply x0 x1 p q).trans ?_
  unfold rowsProduct
  exact Finset.sum_congr rfl fun k _ => by rw [h0 k, h1 k]

/-- The three index maps over the grid, decided once: the result's block is (row-block `t % 16`, column-block
    `t / 16`); the activation block is the same row-block, column-block 0; the weight block is the result's
    column-block, column-block 0. -/
theorem idx_facts : ∀ t : Fin cfg0.N,
    win0_2.index t (0 : Fin 2) = t.val % 16 ∧ win0_2.index t (1 : Fin 2) = t.val / 16
    ∧ win0_0.index t (0 : Fin 2) = t.val % 16 ∧ win0_0.index t (1 : Fin 2) = 0
    ∧ win0_1.index t (0 : Fin 2) = t.val / 16 ∧ win0_1.index t (1 : Fin 2) = 0 :=
  (by decide +kernel : ∀ t : Fin grid0.N, _)

variable (m : (ℓ : Loc nD τ sig) → Buf (Elt Ideal) ℓ)

/-- WHAT POINT `t` WRITES BACK is block `t` of the rows' product of the two operand arrays as the region finds them. -/
theorem flushed_eq (c : Dev nD) (t : Fin cfg0.N) :
    (dats m 0 c).flushed 2 t
      = ((cfg0.win 2).blk t).view.read (Elt Ideal) (rowsProduct (V m c main_v14) (V m c main_v12)) := by
  show (cfg0.win 2).cut (grid0.coords t) ((dats m 0 c).after 2 t) = _
  rw [after0_2]
  unfold out0_2
  rw [View.canon_unit_zero zero_offsets]
  simp only [View.ld_unit_zero (S := S512x4096) zero_offsets, View.ld_unit_zero (S := S1024x4096) zero_offsets]
  obtain ⟨e0, e1, e2, e3, e4, e5⟩ := idx_facts t
  funext j
  show k0_pay1 (iblk m c 0 t) (iblk m c 1 t) j
    = rowsProduct (V m c main_v14) (V m c main_v12) (((cfg0.win 2).blk t).view.emb j)
  refine block_is_product (V m c main_v14) (V m c main_v12) (iblk m c 0 t) (iblk m c 1 t) j
    (((cfg0.win 2).blk t).view.emb j) ?_ ?_
  · intro k
    show V m c main_v14 (((cfg0.win 0).blk t).view.emb (ix2 (j 0) k))
      = V m c main_v14 (ix2 ((((cfg0.win 2).blk t).view.emb j) 0) k)
    refine congrArg _ (funext fun a => Fin.ext ?_)
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 4096 + 1 * k.val = k.val
      omega
  · intro k
    show V m c main_v12 (((cfg0.win 1).blk t).view.emb (ix2 (j 1) k))
      = V m c main_v12 (ix2 ((((cfg0.win 2).blk t).view.emb j) 1) k)
    refine congrArg _ (funext fun a => Fin.ext ?_)
    match a with
    | ⟨0, _⟩ =>
      show win0_1.index t (0 : Fin 2) * 1024 + 1 * (j 1).val = win0_2.index t (1 : Fin 2) * 1024 + 1 * (j 1).val
      omega
    | ⟨1, _⟩ =>
      show win0_1.index t (1 : Fin 2) * 4096 + 1 * k.val = k.val
      omega

/-- An entry of the result is in point `t`'s block iff each coordinate is in the block's range on its axis. -/
theorem mem_blk (t : Fin cfg0.N) (i : S8192x16384.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v15).slice (win0_2.rect t)).set ↔ _
  rw [View.set_slice_whole, Rect.mem_set_unit]
  exact Iff.rfl

/-- Every entry `(r, o)` of the result lies in the block of the point `16·(o / 1024) + r / 512`, which writes back. -/
theorem cover (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  have hlt : (i 1).val / 1024 * 16 + (i 0).val / 512 < cfg0.N := by
    rw [show cfg0.N = 256 from N_0]; omega
  obtain ⟨e0, e1, -⟩ := idx_facts ⟨(i 1).val / 1024 * 16 + (i 0).val / 512, hlt⟩
  have f0 : win0_2.index ⟨(i 1).val / 1024 * 16 + (i 0).val / 512, hlt⟩ (0 : Fin 2)
      = ((i 1).val / 1024 * 16 + (i 0).val / 512) % 16 := e0
  have f1 : win0_2.index ⟨(i 1).val / 1024 * 16 + (i 0).val / 512, hlt⟩ (1 : Fin 2)
      = ((i 1).val / 1024 * 16 + (i 0).val / 512) / 16 := e1
  refine ⟨⟨(i 1).val / 1024 * 16 + (i 0).val / 512, hlt⟩, flush0_2 _, ?_⟩
  rw [mem_blk]
  intro a
  match a with
  | ⟨0, _⟩ =>
    show win0_2.index ⟨(i 1).val / 1024 * 16 + (i 0).val / 512, hlt⟩ (0 : Fin 2) * 512 ≤ (i 0).val
      ∧ (i 0).val < win0_2.index ⟨(i 1).val / 1024 * 16 + (i 0).val / 512, hlt⟩ (0 : Fin 2) * 512 + 512
    rw [f0]; omega
  | ⟨1, _⟩ =>
    show win0_2.index ⟨(i 1).val / 1024 * 16 + (i 0).val / 512, hlt⟩ (1 : Fin 2) * 1024 ≤ (i 1).val
      ∧ (i 1).val < win0_2.index ⟨(i 1).val / 1024 * 16 + (i 0).val / 512, hlt⟩ (1 : Fin 2) * 1024 + 1024
    rw [f1]; omega

/-- THE RESULT ARRAY after the run: the rows' product of the two operand arrays as the region finds them. -/
theorem product_array (c : Dev nD) :
    (dats m 0 c).arrAt 2 cfg0.N = rowsProduct (V m c main_v14) (V m c main_v12) :=
  (dats m 0 c).arrAt_eq_of_cover 2 _ (fun t _ => flushed_eq m c t) cover

end Cert.KernelIdeal.ProductValue

end
-- ==== Proof.KernelLinear.lean ====
/-
  The whole program computes the layer.

  After the region the host splits the 8192 rows of the result back into the two leading axes: entry `(b, s, o)` of
  the final result is entry `(2048·b + s, o)` of the region's array (the two have the same row-major position). The
  region's array is the product of all rows of the flattened activations with all rows of the quantized weights, and
  row `2048·b + s` of the flattened activations is `x[b, s, ·]`. So the final result at `(b, s, o)` is
  `Σ_k x[b, s, k] · q[o, k]`: the layer of the activations and the quantized weight matrix.
-/
import proofs.«136857_j24438363914262_1_alg».proof.Proof.Gen.KernelIdeal.Frame
import proofs.«136857_j24438363914262_1_alg».proof.Proof.Linear
import proofs.«136857_j24438363914262_1_alg».proof.Proof.Entry
import proofs.«136857_j24438363914262_1_alg».proof.Proof.Product
import Idealize.ShloMosaic.Lib.StableHlo.Run

noncomputable section

namespace Cert.KernelIdeal.LayerValue

open Cert.KernelIdeal Cert.KernelIdeal.Gen Idealize.ShloMosaic Idealize.ShloMosaic.TcCoe Idealize.SL.Sem
open Idealize.ShloMosaic.StableHlo Idealize.ShloMosaic.ValueIdx
open Cert.TernaryLinear

variable (m : (ℓ : Loc nD τ sig) → Buf (Elt Ideal) ℓ) (ρ : Dev nD → PrngReg)

/-- The result array as the region leaves it, seen by the host operations that follow: the rows' product. -/
theorem region_exit (c : Dev nD) :
    (Pipeline.withArrays (cfgs 0).spec c (V0 m c) (fun w => (dats m 0 c).arrAt w (cfgs 0).N) (Proc.devRef .tc main_v15)
      : S8192x16384.Idx → EReal) = rowsProduct (V m c main_v14) (V m c main_v12) :=
  (Pipeline.withArrays_arr spec0 launch0.win.arr_inj c (V0 m c) (fun w => (dats m 0 c).arrAt w cfg0.N) 2).trans
    (ProductValue.product_array m c)

/-- The program's result after the host's final reshape is the layer of the activations and the quantized weights. -/
theorem result (c : Dev nD) :
    (Pipeline.afterTail₀ cfgs (dats m) 0 (V0 m) [hostOps1] c main_v16 : S4x2048x16384.Idx → EReal)
      = linear (m ((c : Thread nD τ).loc main_arg0)) (Entry.quantized (m ((c : Thread nD τ).loc main_arg1))) := by
  unfold Pipeline.afterTail₀
  show StableHlo.after hostOps1 _ (Proc.devRef .tc main_v16) = _
  after_results
  funext i
  obtain ⟨b, s, o, rfl⟩ : ∃ (b : Fin 4) (s : Fin 2048) (o : Fin 16384), i = ix3 b s o := ⟨i 0, i 1, i 2, eq_ix3 i⟩
  have hr : b.val * 2048 + s.val < 8192 := by have := b.isLt; have := s.isLt; omega
  show shapeCast S4x2048x16384
      (Pipeline.withArrays (cfgs 0).spec c (V0 m c) (fun w => (dats m 0 c).arrAt w (cfgs 0).N) (Proc.devRef .tc main_v15)
        : S8192x16384.Idx → EReal)
      shapeCasts_S8192x16384_S4x2048x16384 (ix3 b s o) = _
  rw [region_exit m c]
  refine (shapeCast_apply _ _ (ix3 b s o) (ix2 (⟨b.val * 2048 + s.val, hr⟩ : Fin 8192) o) ?_).trans ?_
  · show ((⟨2, ![8192, 16384]⟩ : Shape).rowMajor (ix2 (⟨b.val * 2048 + s.val, hr⟩ : Fin 8192) o)).val
      = ((⟨3, ![4, 2048, 16384]⟩ : Shape).rowMajor (ix3 b s o)).val
    rw [Shape.rowMajor_val_two, Shape.rowMajor_val_three]
    rfl
  · refine (rowsProduct_eq_linear (m ((c : Thread nD τ).loc main_arg0)) (V m c main_v14) (V m c main_v12) b s o
      (⟨b.val * 2048 + s.val, hr⟩ : Fin 8192) (fun k => Entry.rows_operand_apply m c b s k _ rfl)).trans ?_
    rw [Entry.weight_operand m c]

/-- The run, re-posted: the result at the layer of the argument arrays, the arguments unchanged. -/
theorem run : θ_run defs (onTc (τ := τ) (main (F := Ideal))) ⟨m, fun _ => 0, ρ⟩ fun r => ∀ c : Dev nD,
      r.2.mem ((c.tc : Thread nD τ).loc main_v16)
        = linear (m ((c.tc : Thread nD τ).loc main_arg0)) (Entry.quantized (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v16 (Pipeline.mem_restRefs_of main_v16 (by decide) (by decide))).trans (result m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.LayerValue

end
-- ==== Proof.lean ====
/-
  A ternary-weight linear layer against its reference, over the extended reals.

  Both programs quantize the weight matrix `W` the same way on the host — `q = sign(W/γ) · min(round(|W/γ|), 1)` with
  `γ` the mean of `|W|` plus the same small constant — by the same operations in the same order with the same
  constants, so the two quantized matrices are one function of `W`. The reference then contracts the activations' last
  axis with `q`'s last axis in one product: `out[b, s, o] = Σ_k x[b, s, k] · q[o, k]`. The kernel narrows both operands
  to a 16-bit format (over the extended reals a change of format is the identity), flattens the activations to 8192
  rows, computes the 8192 × 16384 product in 256 blocks of 512 × 1024, each block one full-length product of 512 rows
  against 1024 weight rows into a zero accumulator, and splits the rows again. Block by block and entry by entry that
  is the same sum over `k` of the same products in the same order, so the two results are equal with no law of the
  extended reals used and no use of the inputs' finiteness.

  The three programs' runs are the generated frames; the kernel's idealization rewrote no operation, so there is
  nothing to preserve beyond the text itself.
-/
import proofs.«136857_j24438363914262_1_alg».proof.Defs
import proofs.«136857_j24438363914262_1_alg».proof.Proof.Gen.Kernel
import proofs.«136857_j24438363914262_1_alg».proof.Proof.Gen.Kernel.Skeleton
import proofs.«136857_j24438363914262_1_alg».proof.Proof.Gen.Kernel.Launch
import proofs.«136857_j24438363914262_1_alg».proof.Proof.Gen.Kernel.Points
import proofs.«136857_j24438363914262_1_alg».proof.Proof.Gen.Kernel.Frame
import proofs.«136857_j24438363914262_1_alg».proof.Proof.Gen.KernelIdeal
import proofs.«136857_j24438363914262_1_alg».proof.Proof.Gen.KernelIdeal.Skeleton
import proofs.«136857_j24438363914262_1_alg».proof.Proof.Gen.KernelIdeal.Launch
import proofs.«136857_j24438363914262_1_alg».proof.Proof.Gen.KernelIdeal.Points
import proofs.«136857_j24438363914262_1_alg».proof.Proof.Gen.KernelIdeal.Frame
import proofs.«136857_j24438363914262_1_alg».proof.Proof.Gen.ReferenceIdeal
import proofs.«136857_j24438363914262_1_alg».proof.Proof.Gen.Pre_finite_inputs
import proofs.«136857_j24438363914262_1_alg».proof.Proof.Gen.ReferenceIdeal.Run
import proofs.«136857_j24438363914262_1_alg».proof.Proof.Gen.ReferenceIdeal.Read
import proofs.«136857_j24438363914262_1_alg».proof.Proof.Linear
import proofs.«136857_j24438363914262_1_alg».proof.Proof.RefLinear
import proofs.«136857_j24438363914262_1_alg».proof.Proof.KernelLinear
import Idealize.ShloMosaic.Adequacy
import Idealize.ShloMosaic.Init

noncomputable section

namespace Cert.Proof

open Idealize.ShloMosaic Idealize.ShloMosaic.TcCoe Idealize.SL.Sem

/-- The two programs quantize the weight matrix by the same operations with the same constants: one function. -/
theorem same_quantization (W : FVec Ideal Cert.KernelIdeal.S16384x4096 .f32) :
    Cert.ReferenceIdeal.Read.val_main_v11 (F := Ideal) W = Cert.KernelIdeal.Entry.quantized W := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at the layer of the activations and the quantized weight matrix. -/
theorem algebraic : Cert.algebraic_KernelIdeal_ReferenceIdeal := by
  intro m ρ m' ρ' _ hagree
  refine ⟨fun c => Cert.TernaryLinear.linear (m ((c.tc : Thread Cert.KernelIdeal.nD Cert.KernelIdeal.τ).loc Cert.KernelIdeal.main_arg0))
      (Cert.KernelIdeal.Entry.quantized (m ((c.tc : Thread Cert.KernelIdeal.nD Cert.KernelIdeal.τ).loc Cert.KernelIdeal.main_arg1))),
    Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2,
    same_quantization]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
